-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_c_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_c_7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_c_12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x128 : Shape := ⟨2, ![100000, 128]⟩
abbrev S800000x6 : Shape := ⟨2, ![800000, 6]⟩
abbrev S800000 : Shape := ⟨1, ![800000]⟩
abbrev S95x128 : Shape := ⟨2, ![95, 128]⟩
abbrev S6x128 : Shape := ⟨2, ![6, 128]⟩
abbrev S128 : Shape := ⟨1, ![128]⟩
abbrev S640x128 : Shape := ⟨2, ![640, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x6 : S_.BroadcastsInDim S800000x6 (![] : Fin 0 → Fin S800000x6.rank)
  reducesTo_S800000x6_S_d0_1 : S800000x6.ReducesTo [0, 1] S_
  bcast_S_S95x128 : S_.BroadcastsInDim S95x128 (![] : Fin 0 → Fin S95x128.rank)
  reducesTo_S95x128_S_d0_1 : S95x128.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S640x128 : S_.BroadcastsInDim S640x128 (![] : Fin 0 → Fin S640x128.rank)
  reducesTo_S640x128_S_d0_1 : S640x128.ReducesTo [0, 1] S_

variable [Facts]

def fn_part1 {F : FTy → Type} [FloatOps F] (main_arg7 : FVec F S128 .f32) (main_arg8 : FVec F S640x128 .f32) (main_arg9 : FVec F S128 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S640x128 .f32 := Host.absf main_arg8
  let main_cst_8 : FVec F S_ .f32 := constant S_ .f32 0x7F800000#32
  let main_v25 : FVec F S640x128 .f32 := broadcastInDim S640x128 ![] bcast_S_S640x128 main_cst_8
  let main_v26 : IVec S640x128 1 := cmpf .olt main_v24 main_v25
  let main_c_9 : IVec S_ 1 := constantI S_ 1 1#1
  let main_v27 : IVec S_ 1 := (fun x v => Host.reduce IntOp.andi x v reducesTo_S640x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S100000 32) (main_arg1 : FVec F S100000x128 .f32) (main_arg2 : FVec F S800000x6 .f32) (main_arg3 : IVec S800000 32) (main_arg4 : IVec S800000 32) (main_arg5 : FVec F S95x128 .f32) (main_arg6 : FVec F S6x128 .f32) (main_arg7 : FVec F S128 .f32) (main_arg8 : FVec F S640x128 .f32) (main_arg9 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x6 .f32 := Host.absf main_arg2
  let main_cst_0 : FVec F S_ .f32 := constant S_ .f32 0x7F800000#32
  let main_v5 : FVec F S800000x6 .f32 := broadcastInDim S800000x6 ![] bcast_S_S800000x6 main_cst_0
  let main_v6 : IVec S800000x6 1 := cmpf .olt main_v4 main_v5
  let main_c_1 : IVec S_ 1 := constantI S_ 1 1#1
  let main_v7 : IVec S_ 1 := (fun x v => Host.reduce IntOp.andi x v reducesTo_S800000x6_S_d0_1 h_S_) main_v6 main_c_1
  let main_v8 : IVec S_ 1 := andi main_v3 main_v7
  let main_v9 : FVec F S95x128 .f32 := Host.absf main_arg5
  let main_cst_2 : FVec F S_ .f32 := constant S_ .f32 0x7F800000#32
  let main_v10 : FVec F S95x128 .f32 := broadcastInDim S95x128 ![] bcast_S_S95x128 main_cst_2
  let main_v11 : IVec S95x128 1 := cmpf .olt main_v9 main_v10
  let main_c_3 : IVec S_ 1 := constantI S_ 1 1#1
  let main_v12 : IVec S_ 1 := (fun x v => Host.reduce IntOp.andi x v reducesTo_S95x128_S_d0_1 h_S_) main_v11 main_c_3
  let main_v13 : IVec S_ 1 := andi main_v8 main_v12
  let main_v14 : FVec F S6x128 .f32 := Host.absf main_arg6
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg7 main_arg8 main_arg9 main_v13 main_v16
-- ==== Kernel.lean ====
abbrev S100000 : Shape := ⟨1, ![100000]⟩
abbrev S100000x128 : Shape := ⟨2, ![100000, 128]⟩
abbrev S800000x6 : Shape := ⟨2, ![800000, 6]⟩
abbrev S800000 : Shape := ⟨1, ![800000]⟩
abbrev S95x128 : Shape := ⟨2, ![95, 128]⟩
abbrev S6x128 : Shape := ⟨2, ![6, 128]⟩
abbrev S128 : Shape := ⟨1, ![128]⟩
abbrev S640x128 : Shape := ⟨2, ![640, 128]⟩
abbrev S128x128 : Shape := ⟨2, ![128, 128]⟩
abbrev S_ : Shape := ⟨0, ![]⟩
abbrev S100000x1 : Shape := ⟨2, ![100000, 1]⟩
abbrev S2000x128 : Shape := ⟨2, ![2000, 128]⟩
abbrev S800000x1 : Shape := ⟨2, ![800000, 1]⟩
abbrev S800000x128 : Shape := ⟨2, ![800000, 128]⟩
abbrev S1x128 : Shape := ⟨2, ![1, 128]⟩
abbrev S6400x128 : Shape := ⟨2, ![6400, 128]⟩
abbrev S6400x6 : Shape := ⟨2, ![6400, 6]⟩

abbrev nBuf : Space → Nat
  | .hbm => 63
  | .vmem => 24
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S800000x6, .f32⟩
  | .hbm, ⟨3, _⟩ => ⟨S800000, .i32⟩
  | .hbm, ⟨4, _⟩ => ⟨S800000, .i32⟩
  | .hbm, ⟨5, _⟩ => ⟨S95x128, .f32⟩
  | .hbm, ⟨6, _⟩ => ⟨S6x128, .f32⟩
  | .hbm, ⟨7, _⟩ => ⟨S128, .f32⟩
  | .hbm, ⟨8, _⟩ => ⟨S640x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S95x128, .f32⟩
  | .hbm, ⟨16, _⟩ => ⟨S95x128, .f32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x128, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x128, .f32⟩
  | .hbm, ⟨35, _⟩ => ⟨S128x128, .bf16⟩
  | .hbm, ⟨36, _⟩ => ⟨S128x128, .bf16⟩
  | .hbm, ⟨37, _⟩ => ⟨S100000x128, .bf16⟩
  | .hbm, ⟨38, _⟩ => ⟨S100000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .bf16⟩
  | .hbm, ⟨57, _⟩ => ⟨S6x128, .bf16⟩
  | .hbm, ⟨58, _⟩ => ⟨S128x128, .bf16⟩
  | .hbm, ⟨59, _⟩ => ⟨S1x128, .f32⟩
  | .hbm, ⟨60, _⟩ => ⟨S1x128, .f32⟩
  | .hbm, ⟨61, _⟩ => ⟨S800000x128, .f32⟩
  | .hbm, ⟨62, _⟩ => ⟨S_, .i32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .bf16⟩
  | .local _ .vmem, ⟨7, _⟩ => ⟨S128x128, .bf16⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S6400x128, .bf16⟩
  | .local _ .vmem, ⟨13, _⟩ => ⟨S6400x128, .bf16⟩
  | .local _ .vmem, ⟨14, _⟩ => ⟨S6400x128, .bf16⟩
  | .local _ .vmem, ⟨15, _⟩ => ⟨S6400x128, .bf16⟩
  | .local _ .vmem, ⟨16, _⟩ => ⟨S6400x6, .f32⟩
  | .local _ .vmem, ⟨17, _⟩ => ⟨S6400x6, .f32⟩
  | .local _ .vmem, ⟨18, _⟩ => ⟨S6x128, .bf16⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S6400x128, .f32⟩
  | .local _ .vmem, ⟨23, _⟩ => ⟨S6400x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S640x128_S128x128_0_0 : S640x128.Slices ![0, 0] S128x128
  slices_S640x128_S128x128_128_0 : S640x128.Slices ![128, 0] S128x128
  slices_S640x128_S128x128_256_0 : S640x128.Slices ![256, 0] S128x128
  slices_S640x128_S128x128_384_0 : S640x128.Slices ![384, 0] S128x128
  slices_S640x128_S128x128_512_0 : S640x128.Slices ![512, 0] S128x128
  bcast_S_S100000 : S_.BroadcastsInDim S100000 (![] : Fin 0 → Fin S100000.rank)
  bcast_S100000_S100000x1_0 : S100000.BroadcastsInDim S100000x1 (![0] : Fin 1 → Fin S100000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S6400x6_S6400x6_0_0 : ∀ a, (![0, 0] : Fin 2 → Nat) a + S6400x6.size a ≤ S6400x6.size a
  h_S6400x6 : 0 < S6400x6.numel
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  dot_S95x128_S128x128_S95x128_1_0_0_1_n_n_wf : DotDims.WF S95x128 S128x128 S95x128 [1] [0] [0] [1] [] []
  gather_S95x128_S100000x1_S100000x128_1_0_n_n_0_1_1128_wf : GatherDims.WF S95x128 S100000x1 S100000x128 [1] [0] [] [0] [] 1 ![1, 128]
  dot_S2000x128_S128x128_S2000x128_1_0_0_1_n_n_wf : DotDims.WF S2000x128 S128x128 S2000x128 [1] [0] [0] [1] [] []
  gather_S100000x128_S800000x1_S800000x128_1_0_n_n_0_1_1128_wf : GatherDims.WF S100000x128 S800000x1 S800000x128 [1] [0] [] [0] [] 1 ![1, 128]
  dot_S6400x6_S6x128_S6400x128_1_0_0_1_n_n_wf : DotDims.WF S6400x6 S6x128 S6400x128 [1] [0] [0] [1] [] []
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .bf16 = 32 ∨ (Rect.block (s := S100000x128) S2000x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .bf16 = 32 ∨ (Rect.block (s := S100000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .bf16 = 32 ∨ (Rect.block (s := S800000x128) S6400x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S800000x128.size a
  hwx1_1 : ∀ i : grid1.Coords, EltTy.bits .bf16 = 32 ∨ (Rect.block (s := S800000x128) S6400x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x6.size a ≤ S800000x6.size a
  hwx1_2 : ∀ i : grid1.Coords, EltTy.bits .f32 = 32 ∨ (Rect.block (s := S800000x6) S6400x6.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x128.size a ≤ S6x128.size a
  hwx1_3 : ∀ i : grid1.Coords, EltTy.bits .bf16 = 32 ∨ (Rect.block (s := S6x128) S6x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x128.size a ≤ S800000x128.size a
  hwx1_7 : ∀ i : grid1.Coords, EltTy.bits .f32 = 32 ∨ (Rect.block (s := S800000x128) S6400x128.size (cc1_transform_7 i) (hinb1_7 i)).WholeWords (EltTy.packing .f32)

variable [Facts₀]

def dot_S95x128_S128x128_S95x128_1_0_0_1_n_n : DotDims S95x128 S128x128 S95x128 where
  lhsContracting := [1]
  rhsContracting := [0]
  lhsNonContracting := [0]
  rhsNonContracting := [1]
  lhsBatch := []
  rhsBatch := []
  wf := dot_S95x128_S128x128_S95x128_1_0_0_1_n_n_wf
def gather_S95x128_S100000x1_S100000x128_1_0_n_n_0_1_1128 : GatherDims S95x128 S100000x1 S100000x128 where
  offsetDims := [1]
  collapsedSliceDims := [0]
  operandBatchingDims := []
  startIndicesBatchingDims := []
  startIndexMap := [0]
  indexVectorDim := 1
  sliceSizes := ![1, 128]
  wf := gather_S95x128_S100000x1_S100000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S6400x6_S6x128_S6400x128_1_0_0_1_n_n : DotDims S6400x6 S6x128 S6400x128 where
  lhsContracting := [1]
  rhsContracting := [0]
  lhsNonContracting := [0]
  rhsNonContracting := [1]
  lhsBatch := []
  rhsBatch := []
  wf := dot_S6400x6_S6x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S6400x6.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S6x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S6400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000 : Shape := ⟨1, ![100000]⟩
abbrev S100000x128 : Shape := ⟨2, ![100000, 128]⟩
abbrev S800000x6 : Shape := ⟨2, ![800000, 6]⟩
abbrev S800000 : Shape := ⟨1, ![800000]⟩
abbrev S95x128 : Shape := ⟨2, ![95, 128]⟩
abbrev S6x128 : Shape := ⟨2, ![6, 128]⟩
abbrev S128 : Shape := ⟨1, ![128]⟩
abbrev S640x128 : Shape := ⟨2, ![640, 128]⟩
abbrev S_ : Shape := ⟨0, ![]⟩
abbrev S100000x1 : Shape := ⟨2, ![100000, 1]⟩
abbrev S800000x128 : Shape := ⟨2, ![800000, 128]⟩
abbrev S1x128 : Shape := ⟨2, ![1, 128]⟩
abbrev S128x128 : Shape := ⟨2, ![128, 128]⟩
abbrev S800000x1 : Shape := ⟨2, ![800000, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S800000x6, .f32⟩
  | .hbm, ⟨3, _⟩ => ⟨S800000, .i32⟩
  | .hbm, ⟨4, _⟩ => ⟨S800000, .i32⟩
  | .hbm, ⟨5, _⟩ => ⟨S95x128, .f32⟩
  | .hbm, ⟨6, _⟩ => ⟨S6x128, .f32⟩
  | .hbm, ⟨7, _⟩ => ⟨S128, .f32⟩
  | .hbm, ⟨8, _⟩ => ⟨S640x128, .f32⟩
  | .hbm, ⟨9, _⟩ => ⟨S128, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x128, .f32⟩
  | .hbm, ⟨19, _⟩ => ⟨S800000x128, .f32⟩
  | .hbm, ⟨20, _⟩ => ⟨S1x128, .f32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x128, .f32⟩
  | .hbm, ⟨57, _⟩ => ⟨S800000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S800000x128, .f32⟩
  | .hbm, ⟨79, _⟩ => ⟨S800000x128, .f32⟩
  | .hbm, ⟨80, _⟩ => ⟨S800000x128, .f32⟩
  | .hbm, ⟨81, _⟩ => ⟨S800000x128, .f32⟩
  | .hbm, ⟨82, _⟩ => ⟨S1x128, .f32⟩
  | .hbm, ⟨83, _⟩ => ⟨S800000x128, .f32⟩
  | .hbm, ⟨84, _⟩ => ⟨S800000x128, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S800000x128, .f32⟩
  | .hbm, ⟨89, _⟩ => ⟨S800000x128, .f32⟩
  | .hbm, ⟨90, _⟩ => ⟨S_, .f32⟩
  | .hbm, ⟨91, _⟩ => ⟨S800000x128, .f32⟩
  | .hbm, ⟨92, _⟩ => ⟨S800000x128, .f32⟩
  | .hbm, ⟨93, _⟩ => ⟨S800000x128, .f32⟩
  | .hbm, ⟨94, _⟩ => ⟨S_, .i32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S640x128_S128x128_0_0 : S640x128.Slices ![0, 0] S128x128
  slices_S640x128_S128x128_128_0 : S640x128.Slices ![128, 0] S128x128
  slices_S640x128_S128x128_256_0 : S640x128.Slices ![256, 0] S128x128
  slices_S640x128_S128x128_384_0 : S640x128.Slices ![384, 0] S128x128
  slices_S640x128_S128x128_512_0 : S640x128.Slices ![512, 0] S128x128
  bcast_S_S800000 : S_.BroadcastsInDim S800000 (![] : Fin 0 → Fin S800000.rank)
  bcast_S800000_S800000x1_0 : S800000.BroadcastsInDim S800000x1 (![0] : Fin 1 → Fin S800000x1.rank)
  gather_S95x128_S100000x1_S100000x128_1_0_n_n_0_1_1128_wf : GatherDims.WF S95x128 S100000x1 S100000x128 [1] [0] [] [0] [] 1 ![1, 128]
  dot_S800000x6_S6x128_S800000x128_1_0_0_1_n_n_wf : DotDims.WF S800000x6 S6x128 S800000x128 [1] [0] [0] [1] [] []
  gather_S100000x128_S800000x1_S800000x128_1_0_n_n_0_1_1128_wf : GatherDims.WF S100000x128 S800000x1 S800000x128 [1] [0] [] [0] [] 1 ![1, 128]
  dot_S800000x128_S128x128_S800000x128_1_0_0_1_n_n_wf : DotDims.WF S800000x128 S128x128 S800000x128 [1] [0] [0] [1] [] []

variable [Facts₀]

def gather_S95x128_S100000x1_S100000x128_1_0_n_n_0_1_1128 : GatherDims S95x128 S100000x1 S100000x128 where
  offsetDims := [1]
  collapsedSliceDims := [0]
  operandBatchingDims := []
  startIndicesBatchingDims := []
  startIndexMap := [0]
  indexVectorDim := 1
  sliceSizes := ![1, 128]
  wf := gather_S95x128_S100000x1_S100000x128_1_0_n_n_0_1_1128_wf
def dot_S800000x6_S6x128_S800000x128_1_0_0_1_n_n : DotDims S800000x6 S6x128 S800000x128 where
  lhsContracting := [1]
  rhsContracting := [0]
  lhsNonContracting := [0]
  rhsNonContracting := [1]
  lhsBatch := []
  rhsBatch := []
  wf := dot_S800000x6_S6x128_S800000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.KRun.lean ====
/-
  The idealized kernel's run with its two results named.

  The program is two pipelined regions among three stretches of host operations. Every weakly fair execution ends with
  each unscoped buffer at the contents the last boundary of that chain holds; the frame keeps only the argument arrays
  of that fact, and here the two result buffers are kept as well: the edge array at the last boundary's contents, and
  the integer result likewise. The argument arrays end as launched.
-/
import proofs.«174623_j55387898250013_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the edge result and the integer result end at the last
    boundary's contents, and the ten argument arrays end as launched. -/
theorem run_results : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_c_7) = W5 m ρ c (Proc.devRef .tc main_c_7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       h c _ (mem_uc main_c_7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Hand

end
-- ==== Proof.HostReads.lean ====
/-
  What the host operations around the two regions compute, buffer by buffer, from the launch memory.

  Before the node region: the five 128-row slices of the 640 × 128 weight; the embedding table times the first and the
  third slice; each node's integer wrapped when negative (x < 0 ? x + 95 : x) and laid out as a column; the two products
  gathered at the nodes' integers; the second and fourth slice with their format changed.
  Between the regions: each edge's two integers wrapped (i < 0 ? i + 100000 : i) and laid out as columns; the node
  region's two output arrays gathered at them; the radial weight and the fifth slice with their format changed; the two
  biases recast as one-row matrices.
  After the edge region: a constant. The edge result is the edge region's output array.
-/
import proofs.«174623_j55387898250013_2_alg».proof.Proof.Gen.KernelIdeal.Frame
import Idealize.ShloMosaic.Lib.StableHlo.Run
import Idealize.ShloMosaic.PureOps.Ideal

set_option maxRecDepth 16384
set_option maxHeartbeats 1000000

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch contents of the ten argument arrays, at their array types. -/
abbrev argX (c : Dev nD) : IVec S100000 32 := m ((c : Thread nD τ).loc main_arg0)
abbrev argChi (c : Dev nD) : FVec Ideal S100000x128 .f32 := m ((c : Thread nD τ).loc main_arg1)
abbrev argRbf (c : Dev nD) : FVec Ideal S800000x6 .f32 := m ((c : Thread nD τ).loc main_arg2)
abbrev argI (c : Dev nD) : IVec S800000 32 := m ((c : Thread nD τ).loc main_arg3)
abbrev argJ (c : Dev nD) : IVec S800000 32 := m ((c : Thread nD τ).loc main_arg4)
abbrev argEmb (c : Dev nD) : FVec Ideal S95x128 .f32 := m ((c : Thread nD τ).loc main_arg5)
abbrev argWrbf (c : Dev nD) : FVec Ideal S6x128 .f32 := m ((c : Thread nD τ).loc main_arg6)
abbrev argBrbf (c : Dev nD) : FVec Ideal S128 .f32 := m ((c : Thread nD τ).loc main_arg7)
abbrev argW (c : Dev nD) : FVec Ideal S640x128 .f32 := m ((c : Thread nD τ).loc main_arg8)
abbrev argB (c : Dev nD) : FVec Ideal S128 .f32 := m ((c : Thread nD τ).loc main_arg9)

/-- The five 128-row slices of the 640 × 128 weight. -/
abbrev w1 (c : Dev nD) : FVec Ideal S128x128 .f32 := extractStridedSlice S128x128 ![0, 0] (argW m c) slices_S640x128_S128x128_0_0
abbrev w2 (c : Dev nD) : FVec Ideal S128x128 .f32 := extractStridedSlice S128x128 ![128, 0] (argW m c) slices_S640x128_S128x128_128_0
abbrev w3 (c : Dev nD) : FVec Ideal S128x128 .f32 := extractStridedSlice S128x128 ![256, 0] (argW m c) slices_S640x128_S128x128_256_0
abbrev w4 (c : Dev nD) : FVec Ideal S128x128 .f32 := extractStridedSlice S128x128 ![384, 0] (argW m c) slices_S640x128_S128x128_384_0
abbrev w5 (c : Dev nD) : FVec Ideal S128x128 .f32 := extractStridedSlice S128x128 ![512, 0] (argW m c) slices_S640x128_S128x128_512_0

/-- A node's integer, wrapped when negative, as a column of start indices. -/
abbrev nodeInts (x : IVec S100000 32) : IVec S100000x1 32 :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 95#32))) x)

/-- An edge's integer, wrapped when negative, as a column of start indices. -/
abbrev edgeInts (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 100000#32))) i)

/-! ## Before the node region -/

theorem entry0_lookup_first (c : Dev nD) :
    V1 m ρ c main_v13 = (Host.gather gather_S95x128_S100000x1_S100000x128_1_0_n_n_0_1_1128
          (Host.dotGeneral (F := Ideal) dot_S95x128_S128x128_S95x128_1_0_0_1_n_n none (argEmb m c) (w1 m c)) (nodeInts (argX m c))
        : FVec Ideal S100000x128 .f32) := by
  show StableHlo.after hostOps0 (W0 m ρ c) (Proc.devRef .tc main_v13) = _
  after_results
  all_goals rfl

theorem entry0_lookup_second (c : Dev nD) :
    V1 m ρ c main_v20 = (Host.gather gather_S95x128_S100000x1_S100000x128_1_0_n_n_0_1_1128
          (Host.dotGeneral (F := Ideal) dot_S95x128_S128x128_S95x128_1_0_0_1_n_n none (argEmb m c) (w3 m c)) (nodeInts (argX m c))
        : FVec Ideal S100000x128 .f32) := by
  show StableHlo.after hostOps0 (W0 m ρ c) (Proc.devRef .tc main_v20) = _
  after_results
  all_goals rfl

theorem entry0_features (c : Dev nD) :
    V1 m ρ c main_arg1 = argChi m c := by
  show StableHlo.after hostOps0 (W0 m ρ c) (Proc.devRef .tc main_arg1) = _
  after_results

theorem entry0_weight_first (c : Dev nD) :
    V1 m ρ c main_v21 = (truncf (F := Ideal) .bf16 (w2 m c) bitsLt_bf16_f32 : FVec Ideal S128x128 .bf16) := by
  show StableHlo.after hostOps0 (W0 m ρ c) (Proc.devRef .tc main_v21) = _
  after_results
  all_goals rfl

theorem entry0_weight_second (c : Dev nD) :
    V1 m ρ c main_v22 = (truncf (F := Ideal) .bf16 (w4 m c) bitsLt_bf16_f32 : FVec Ideal S128x128 .bf16) := by
  show StableHlo.after hostOps0 (W0 m ρ c) (Proc.devRef .tc main_v22) = _
  after_results
  all_goals rfl

/-! ## At the node region's exit: its two outputs, and the buffers it does not touch -/

theorem exit0_first (c : Dev nD) : W2 m ρ c (Proc.devRef .tc main_v23_0) = (dat0 (V1 m ρ) c).arrAt 5 cfg0.N := W2_arr m ρ c 5
theorem exit0_second (c : Dev nD) : W2 m ρ c (Proc.devRef .tc main_v23_1) = (dat0 (V1 m ρ) c).arrAt 6 cfg0.N := W2_arr m ρ c 6

theorem exit0_arg2 (c : Dev nD) : W2 m ρ c (Proc.devRef .tc main_arg2) = argRbf m c :=
  (W2_of_ne m ρ c main_arg2 (by decide)).trans (by
    show StableHlo.after hostOps0 (W0 m ρ c) (Proc.devRef .tc main_arg2) = _
    after_results)
theorem exit0_arg3 (c : Dev nD) : W2 m ρ c (Proc.devRef .tc main_arg3) = argI m c :=
  (W2_of_ne m ρ c main_arg3 (by decide)).trans (by
    show StableHlo.after hostOps0 (W0 m ρ c) (Proc.devRef .tc main_arg3) = _
    after_results)
theorem exit0_arg4 (c : Dev nD) : W2 m ρ c (Proc.devRef .tc main_arg4) = argJ m c :=
  (W2_of_ne m ρ c main_arg4 (by decide)).trans (by
    show StableHlo.after hostOps0 (W0 m ρ c) (Proc.devRef .tc main_arg4) = _
    after_results)
theorem exit0_arg6 (c : Dev nD) : W2 m ρ c (Proc.devRef .tc main_arg6) = argWrbf m c :=
  (W2_of_ne m ρ c main_arg6 (by decide)).trans (by
    show StableHlo.after hostOps0 (W0 m ρ c) (Proc.devRef .tc main_arg6) = _
    after_results)
theorem exit0_arg7 (c : Dev nD) : W2 m ρ c (Proc.devRef .tc main_arg7) = argBrbf m c :=
  (W2_of_ne m ρ c main_arg7 (by decide)).trans (by
    show StableHlo.after hostOps0 (W0 m ρ c) (Proc.devRef .tc main_arg7) = _
    after_results)
theorem exit0_arg9 (c : Dev nD) : W2 m ρ c (Proc.devRef .tc main_arg9) = argB m c :=
  (W2_of_ne m ρ c main_arg9 (by decide)).trans (by
    show StableHlo.after hostOps0 (W0 m ρ c) (Proc.devRef .tc main_arg9) = _
    after_results)
theorem exit0_slice_fifth (c : Dev nD) : W2 m ρ c (Proc.devRef .tc main_v4) = w5 m c :=
  (W2_of_ne m ρ c main_v4 (by decide)).trans (by
    show StableHlo.after hostOps0 (W0 m ρ c) (Proc.devRef .tc main_v4) = _
    after_results
    all_goals rfl)

/-! ## Before the edge region -/

theorem entry1_gathered_first (c : Dev nD) :
    V3 m ρ c main_v30 = (Host.gather gather_S100000x128_S800000x1_S800000x128_1_0_n_n_0_1_1128
          (W2 m ρ c (Proc.devRef .tc main_v23_0)) (edgeInts (argI m c)) : FVec Ideal S800000x128 .bf16) := by
  show StableHlo.after hostOps1 (W2 m ρ c) (Proc.devRef .tc main_v30) = _
  after_results
  exact congrArg (fun (i : IVec S800000 32) =>
    Host.gather gather_S100000x128_S800000x1_S800000x128_1_0_n_n_0_1_1128 (W2 m ρ c (Proc.devRef .tc main_v23_0)) (edgeInts i)) (exit0_arg3 m ρ c)

theorem entry1_gathered_second (c : Dev nD) :
    V3 m ρ c main_v37 = (Host.gather gather_S100000x128_S800000x1_S800000x128_1_0_n_n_0_1_1128
          (W2 m ρ c (Proc.devRef .tc main_v23_1)) (edgeInts (argJ m c)) : FVec Ideal S800000x128 .bf16) := by
  show StableHlo.after hostOps1 (W2 m ρ c) (Proc.devRef .tc main_v37) = _
  after_results
  exact congrArg (fun (i : IVec S800000 32) =>
    Host.gather gather_S100000x128_S800000x1_S800000x128_1_0_n_n_0_1_1128 (W2 m ρ c (Proc.devRef .tc main_v23_1)) (edgeInts i)) (exit0_arg4 m ρ c)

theorem entry1_radial (c : Dev nD) :
    V3 m ρ c main_arg2 = argRbf m c := by
  show StableHlo.after hostOps1 (W2 m ρ c) (Proc.devRef .tc main_arg2) = _
  after_results
  exact exit0_arg2 m ρ c

theorem entry1_radial_weight (c : Dev nD) :
    V3 m ρ c main_v38 = (truncf (F := Ideal) .bf16 (argWrbf m c) bitsLt_bf16_f32 : FVec Ideal S6x128 .bf16) := by
  show StableHlo.after hostOps1 (W2 m ρ c) (Proc.devRef .tc main_v38) = _
  after_results
  exact congrArg (fun a : FVec Ideal S6x128 .f32 => truncf .bf16 a bitsLt_bf16_f32) (exit0_arg6 m ρ c)

theorem entry1_radial_bias (c : Dev nD) :
    V3 m ρ c main_v40 = (shapeCast S1x128 (argBrbf m c) shapeCasts_S128_S1x128 : FVec Ideal S1x128 .f32) := by
  show StableHlo.after hostOps1 (W2 m ρ c) (Proc.devRef .tc main_v40) = _
  after_results
  exact congrArg (fun a : FVec Ideal S128 .f32 => shapeCast S1x128 a shapeCasts_S128_S1x128) (exit0_arg7 m ρ c)

theorem entry1_weight_fifth (c : Dev nD) :
    V3 m ρ c main_v39 = (truncf (F := Ideal) .bf16 (w5 m c) bitsLt_bf16_f32 : FVec Ideal S128x128 .bf16) := by
  show StableHlo.after hostOps1 (W2 m ρ c) (Proc.devRef .tc main_v39) = _
  after_results
  exact congrArg (fun a : FVec Ideal S128x128 .f32 => truncf .bf16 a bitsLt_bf16_f32) (exit0_slice_fifth m ρ c)

theorem entry1_bias (c : Dev nD) :
    V3 m ρ c main_v41 = (shapeCast S1x128 (argB m c) shapeCasts_S128_S1x128 : FVec Ideal S1x128 .f32) := by
  show StableHlo.after hostOps1 (W2 m ρ c) (Proc.devRef .tc main_v41) = _
  after_results
  exact congrArg (fun a : FVec Ideal S128 .f32 => shapeCast S1x128 a shapeCasts_S128_S1x128) (exit0_arg9 m ρ c)

/-! ## After the edge region -/

theorem last_edges (c : Dev nD) :
    W5 m ρ c (Proc.devRef .tc main_v42) = (dat1 (V3 m ρ) c).arrAt 7 cfg1.N := by
  show StableHlo.after hostOps2 (W4 m ρ c) (Proc.devRef .tc main_v42) = _
  after_results
  exact W4_arr m ρ c 7

theorem last_const (c : Dev nD) :
    W5 m ρ c (Proc.devRef .tc main_c_7) = (constantI S_ 32 1#32 : IVec S_ 32) := by
  show StableHlo.after hostOps2 (W4 m ρ c) (Proc.devRef .tc main_c_7) = _
  after_results

end Cert.KernelIdeal.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.NodePay.lean ====
/-
  The node kernel's two stored values at an index.

  A block of 2000 node rows holds, for the first output, the block of the first table lookup plus the block of node
  features times a 128 × 128 weight, and for the second output the same with the second lookup and the second weight.
  Changing the float format is the identity on the extended reals, the matrix product accumulates into zero, so at
  row p and column q each stored value is the lookup's entry plus the sum over k of feature (p, k) · weight (k, q).
-/
import proofs.«174623_j55387898250013_2_alg».proof.Proof.Gen.KernelIdeal.Skeleton
import proofs.«174623_j55387898250013_2_alg».proof.Proof.LibPlainDot
import Idealize.ShloMosaic.Lib.Pipeline.Value

noncomputable section

namespace Cert.KernelIdeal.Hand

open Cert.KernelIdeal Cert.KernelIdeal.Gen Idealize.ShloMosaic Idealize.ShloMosaic.ValueIdx

/-- First output: lookup (p, q) + Σ_k feature (p, k) · weight (k, q). -/
theorem node_pay_first (v0 v2 : Vec Ideal S2000x128 .f32) (v4 : Vec Ideal S128x128 .bf16) (p : Fin 2000) (q : Fin 128) :
    k0_pay2 (F := Ideal) v0 v2 v4 (ix2 p q) = v2 (ix2 p q) + ∑ k : Fin 128, v0 (ix2 p k) * v4 (ix2 k q) := by
  unfold k0_pay2 k0_pay1
  simp only [shapeCast_self]
  exact congrArg (v2 (ix2 p q) + ·)
    (Cert.Lib.matmul_zero_apply dot_S2000x128_S128x128_S2000x128_1_0_0_1_n_n.wf none v0 v4 p q)

/-- Second output: the same with the second lookup and the second weight. -/
theorem node_pay_second (v0 v8 : Vec Ideal S2000x128 .f32) (v10 : Vec Ideal S128x128 .bf16) (p : Fin 2000) (q : Fin 128) :
    k0_pay3 (F := Ideal) v0 v8 v10 (ix2 p q) = v8 (ix2 p q) + ∑ k : Fin 128, v0 (ix2 p k) * v10 (ix2 k q) := by
  unfold k0_pay3 k0_pay1
  simp only [shapeCast_self]
  exact congrArg (v8 (ix2 p q) + ·)
    (Cert.Lib.matmul_zero_apply dot_S2000x128_S128x128_S2000x128_1_0_0_1_n_n.wf none v0 v10 p q)

end Cert.KernelIdeal.Hand

end
-- ==== Proof.NodeRegion.lean ====
/-
  The node region: each output array after the fifty grid points, as one function of the arrays the region finds.

  Point t handles node rows 2000 t … 2000 t + 1999: the two lookup windows, the feature window and both output windows
  move with t along the rows, the two weight windows stay at their one block. So what point t writes back is rows
  2000 t … of the whole-array function "lookup + features · weight", and the fifty blocks cover the 100000 rows.
-/
import proofs.«174623_j55387898250013_2_alg».proof.Proof.Gen.KernelIdeal.Frame
import proofs.«174623_j55387898250013_2_alg».proof.Proof.NodePay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- A node-level array: lookup (n, h) + Σ_k features (n, k) · weight (k, h). -/
def nodeArr (look chi : S100000x128.Idx → EReal) (w : S128x128.Idx → EReal) : S100000x128.Idx → EReal :=
  fun i => look i + ∑ k : Fin 128, chi (ix2 (i 0) k) * w (ix2 k (i 1))

/-- The printed index maps over the grid: row windows sit at block t, weight windows at block 0. -/
theorem node_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- WHAT POINT t WRITES BACK to the first output is block t of the node-level array. -/
theorem node_flushed_first (c : Dev nD) (t : Fin cfg0.N) :
    (dat0 V c).flushed 5 t
      = ((cfg0.win 5).blk t).view.read (Elt Ideal) (nodeArr (V c main_v13) (V c main_arg1) (V c main_v21)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2]
  obtain ⟨e00, e01, e10, e11, e20, e21, e30, e31, e40, e41, e50, e51, e60, e61⟩ := node_idx t
  funext j
  obtain ⟨p, q, rfl⟩ : ∃ (p : Fin 2000) (q : Fin 128), j = ix2 p q := ⟨j 0, j 1, eq_ix2 j⟩
  show k0_pay2 (iblk0 V c 2 t) (iblk0 V c 0 t) (iblk0 V c 3 t) (ix2 p q)
    = nodeArr (V c main_v13) (V c main_arg1) (V c main_v21) (((cfg0.win 5).blk t).view.emb (ix2 p q))
  refine (node_pay_first _ _ _ p q).trans ?_
  unfold nodeArr
  have hl : iblk0 V c 0 t (ix2 p q) = V c main_v13 (((cfg0.win 5).blk t).view.emb (ix2 p q)) := by
    show V c main_v13 (((cfg0.win 0).blk t).view.emb (ix2 p q)) = _
    refine congrArg (V c main_v13) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * q.val = win0_5.index t (1 : Fin 2) * 128 + 1 * q.val; omega
  have hc : ∀ k : Fin 128, iblk0 V c 2 t (ix2 p k)
      = V c main_arg1 (ix2 ((((cfg0.win 5).blk t).view.emb (ix2 p q)) 0) k) := by
    intro k
    show V c main_arg1 (((cfg0.win 2).blk t).view.emb (ix2 p k)) = _
    refine congrArg (V c main_arg1) (funext fun a => Fin.ext ?_)
    match a with
    | ⟨0, _⟩ => show win0_2.index t (0 : Fin 2) * 2000 + 1 * p.val = win0_5.index t (0 : Fin 2) * 2000 + 1 * p.val; omega
    | ⟨1, _⟩ => show win0_2.index t (1 : Fin 2) * 128 + 1 * k.val = k.val; omega
  have hw : ∀ k : Fin 128, iblk0 V c 3 t (ix2 k q)
      = V c main_v21 (ix2 k ((((cfg0.win 5).blk t).view.emb (ix2 p q)) 1)) := by
    intro k
    show V c main_v21 (((cfg0.win 3).blk t).view.emb (ix2 k q)) = _
    refine congrArg (V c main_v21) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  simp only [hl, hc, hw]

/-- The same for the second output, with the second lookup and the second weight. -/
theorem node_flushed_second (c : Dev nD) (t : Fin cfg0.N) :
    (dat0 V c).flushed 6 t
      = ((cfg0.win 6).blk t).view.read (Elt Ideal) (nodeArr (V c main_v20) (V c main_arg1) (V c main_v22)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128x128) hz2]
  obtain ⟨e00, e01, e10, e11, e20, e21, e30, e31, e40, e41, e50, e51, e60, e61⟩ := node_idx t
  funext j
  obtain ⟨p, q, rfl⟩ : ∃ (p : Fin 2000) (q : Fin 128), j = ix2 p q := ⟨j 0, j 1, eq_ix2 j⟩
  show k0_pay3 (iblk0 V c 2 t) (iblk0 V c 1 t) (iblk0 V c 4 t) (ix2 p q)
    = nodeArr (V c main_v20) (V c main_arg1) (V c main_v22) (((cfg0.win 6).blk t).view.emb (ix2 p q))
  refine (node_pay_second _ _ _ p q).trans ?_
  unfold nodeArr
  have hl : iblk0 V c 1 t (ix2 p q) = V c main_v20 (((cfg0.win 6).blk t).view.emb (ix2 p q)) := by
    show V c main_v20 (((cfg0.win 1).blk t).view.emb (ix2 p q)) = _
    refine congrArg (V c main_v20) (funext fun a => Fin.ext ?_)
    match a with
    | ⟨0, _⟩ => show win0_1.index t (0 : Fin 2) * 2000 + 1 * p.val = win0_6.index t (0 : Fin 2) * 2000 + 1 * p.val; omega
    | ⟨1, _⟩ => show win0_1.index t (1 : Fin 2) * 128 + 1 * q.val = win0_6.index t (1 : Fin 2) * 128 + 1 * q.val; omega
  have hc : ∀ k : Fin 128, iblk0 V c 2 t (ix2 p k)
      = V c main_arg1 (ix2 ((((cfg0.win 6).blk t).view.emb (ix2 p q)) 0) k) := by
    intro k
    show V c main_arg1 (((cfg0.win 2).blk t).view.emb (ix2 p k)) = _
    refine congrArg (V c main_arg1) (funext fun a => Fin.ext ?_)
    match a with
    | ⟨0, _⟩ => show win0_2.index t (0 : Fin 2) * 2000 + 1 * p.val = win0_6.index t (0 : Fin 2) * 2000 + 1 * p.val; omega
    | ⟨1, _⟩ => show win0_2.index t (1 : Fin 2) * 128 + 1 * k.val = k.val; omega
  have hw : ∀ k : Fin 128, iblk0 V c 4 t (ix2 k q)
      = V c main_v22 (ix2 k ((((cfg0.win 6).blk t).view.emb (ix2 p q)) 1)) := by
    intro k
    show V c main_v22 (((cfg0.win 4).blk t).view.emb (ix2 k q)) = _
    refine congrArg (V c main_v22) (funext fun a => Fin.ext ?_)
    match a with
    | ⟨0, _⟩ => show win0_4.index t (0 : Fin 2) * 128 + 1 * k.val = k.val; omega
    | ⟨1, _⟩ => show win0_4.index t (1 : Fin 2) * 128 + 1 * q.val = win0_6.index t (1 : Fin 2) * 128 + 1 * q.val; omega
  simp only [hl, hc, hw]

/-- An index of the first output array is in point t's block iff its coordinates are in the block's ranges. -/
theorem node_mem_first (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v23_0).slice (win0_5.rect t)).set ↔ _
  rw [View.set_slice_whole, Rect.mem_set_unit]
  exact Iff.rfl

theorem node_mem_second (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v23_1).slice (win0_6.rect t)).set ↔ _
  rw [View.set_slice_whole, Rect.mem_set_unit]
  exact Iff.rfl

/-- The point whose block holds node row r: r / 2000. -/
def nodePoint (i : S100000x128.Idx) : Fin cfg0.N :=
  ⟨(i 0).val / 2000, by
    have hN : cfg0.N = 50 := N_0
    have h0 : (i 0).val < 100000 := (i 0).isLt
    rw [hN]; omega⟩

/-- THE FIRST OUTPUT ARRAY after the region: the node-level array of what the region found. -/
theorem node_final_first (c : Dev nD) :
    (dat0 V c).arrAt 5 cfg0.N = nodeArr (V c main_v13) (V c main_arg1) (V c main_v21) :=
  (dat0 V c).arrAt_eq_of_cover 5 _ (fun t _ => node_flushed_first V c t) fun i =>
    ⟨nodePoint i, flush0_5 _, by
      rw [node_mem_first]
      obtain ⟨e00, e01, e10, e11, e20, e21, e30, e31, e40, e41, e50, e51, e60, e61⟩ := node_idx (nodePoint i)
      have h0 : (i 0).val < 100000 := (i 0).isLt
      have h1 : (i 1).val < 128 := (i 1).isLt
      have ht : (nodePoint i).val = (i 0).val / 2000 := rfl
      intro a
      match a with
      | ⟨0, _⟩ =>
        show win0_5.index (nodePoint i) (0 : Fin 2) * 2000 ≤ (i 0).val
          ∧ (i 0).val < win0_5.index (nodePoint i) (0 : Fin 2) * 2000 + 2000
        omega
      | ⟨1, _⟩ =>
        show win0_5.index (nodePoint i) (1 : Fin 2) * 128 ≤ (i 1).val
          ∧ (i 1).val < win0_5.index (nodePoint i) (1 : Fin 2) * 128 + 128
        omega⟩

/-- THE SECOND OUTPUT ARRAY after the region. -/
theorem node_final_second (c : Dev nD) :
    (dat0 V c).arrAt 6 cfg0.N = nodeArr (V c main_v20) (V c main_arg1) (V c main_v22) :=
  (dat0 V c).arrAt_eq_of_cover 6 _ (fun t _ => node_flushed_second V c t) fun i =>
    ⟨nodePoint i, flush0_6 _, by
      rw [node_mem_second]
      obtain ⟨e00, e01, e10, e11, e20, e21, e30, e31, e40, e41, e50, e51, e60, e61⟩ := node_idx (nodePoint i)
      have h0 : (i 0).val < 100000 := (i 0).isLt
      have h1 : (i 1).val < 128 := (i 1).isLt
      have ht : (nodePoint i).val = (i 0).val / 2000 := rfl
      intro a
      match a with
      | ⟨0, _⟩ =>
        show win0_6.index (nodePoint i) (0 : Fin 2) * 2000 ≤ (i 0).val
          ∧ (i 0).val < win0_6.index (nodePoint i) (0 : Fin 2) * 2000 + 2000
        omega
      | ⟨1, _⟩ =>
        show win0_6.index (nodePoint i) (1 : Fin 2) * 128 ≤ (i 1).val
          ∧ (i 1).val < win0_6.index (nodePoint i) (1 : Fin 2) * 128 + 128
        omega⟩

end Cert.KernelIdeal.Hand

end
-- ==== Proof.Swish.lean ====
/-
  The swish function x · σ(x), σ(x) = 1 / (1 + e^(−x)), written two ways on the extended reals.

  One program divides x by 1 + e^(0 − x); the other multiplies x by the quotient 1 / (1 + e^(−x)). On the extended
  reals e^z is never negative (it is 0 at −∞ and +∞ at +∞), so 1 + e^z is never zero and a quotient by it is the product
  with its inverse; the product is associative and 1 is its unit, so the two spellings agree at every extended real,
  the infinities included. No finiteness is used.
-/
import Idealize.ShloMosaic.PureOps.Ideal
import Idealize.ShloMosaic.PureOps.Ideal.Laws
import Idealize.ShloMosaic.PureOps.IdealRules

noncomputable section

namespace Cert.Swish

open Idealize.ShloMosaic

/-- The exponential of an extended real is not negative. -/
theorem exp_nonneg (z : EReal) : 0 ≤ Ideal.exp z := by
  induction z using EReal.rec with
  | bot => rw [Ideal.exp_bot]
  | top => rw [Ideal.exp_top]; exact le_top
  | coe r => rw [Ideal.exp_coe]; exact_mod_cast (Real.exp_pos r).le

/-- So one plus it is not zero. -/
theorem one_add_exp_ne_zero (z : EReal) : (1 : EReal) + Ideal.exp z ≠ 0 := by
  have h1 : (0 : EReal) < 1 := by exact_mod_cast (zero_lt_one : (0 : ℝ) < 1)
  have h : (0 : EReal) < 1 + Ideal.exp z :=
    lt_of_lt_of_le h1 (le_add_of_nonneg_right (exp_nonneg z))
  exact ne_of_gt h

/-- The f32 pattern of 1.0 denotes 1, and that of 0.0 denotes 0. -/
theorem one_pat : Ideal.ofBits .f32 0x3F800000#32 = 1 := IdealRules.sign_bit.ideal_onePat .f32
theorem zero_pat : Ideal.ofBits .f32 0x00000000#32 = 0 := Ideal.ofBits_zero_f32

/-- Swish as a quotient: x / (1 + e^(0 − x)), with the constants as the f32 patterns the program writes. -/
def quot (v : EReal) : EReal :=
  Ideal.div v (Ideal.ofBits .f32 0x3F800000#32 + Ideal.exp (Ideal.ofBits .f32 0x00000000#32 - v))

/-- Swish as a product: x · (1 / (1 + e^(−x))). -/
def prod (v : EReal) : EReal :=
  v * Ideal.div (Ideal.ofBits .f32 0x3F800000#32) (Ideal.ofBits .f32 0x3F800000#32 + Ideal.exp (-v))

/-- The two spellings are one function on the extended reals. -/
theorem prod_eq_quot (v : EReal) : prod v = quot v := by
  unfold prod quot
  rw [one_pat, zero_pat]
  have h0 : (0 : EReal) - v = -v := by rw [sub_eq_add_neg, zero_add]
  rw [h0]
  unfold Ideal.div
  rw [if_neg (one_add_exp_ne_zero _), if_neg (one_add_exp_ne_zero _), one_mul]

end Cert.Swish

end
-- ==== Proof.EdgePay.lean ====
/-
  The edge kernel's stored value at an index.

  Per block of 6400 edges the body computes, with s the swish function written as a quotient x / (1 + e^(0 − x)):
    r (p, k) = s (Σ_j rbf (p, j) · w_rbf (j, k) + b_rbf (0, k))                        -- the radial part
    out (p, q) = s (((a (p, q) + b (p, q)) + Σ_k r (p, k) · w5 (k, q)) + bias (0, q))
  Format changes are the identity on the extended reals, each matrix product accumulates into zero, and a row vector
  [1, 128] broadcast over the rows is read at its one row.
-/
import proofs.«174623_j55387898250013_2_alg».proof.Proof.Gen.KernelIdeal.Skeleton
import proofs.«174623_j55387898250013_2_alg».proof.Proof.LibPlainDot
import proofs.«174623_j55387898250013_2_alg».proof.Proof.Swish
import Idealize.ShloMosaic.Lib.Pipeline.Value

noncomputable section

namespace Cert.KernelIdeal.Hand

open Cert.KernelIdeal Cert.KernelIdeal.Gen Idealize.ShloMosaic Idealize.ShloMosaic.ValueIdx

/-- A [1, 128] row broadcast over 6400 rows, at (p, k), is the row at (0, k). -/
theorem bcast_row_apply {α : Type} (v : S1x128.Idx → α) (p : Fin 6400) (k : Fin 128) :
    broadcastTo S6400x128 v broadcasts_S1x128_S6400x128 (ix2 p k) = v (ix2 (0 : Fin 1) k) :=
  broadcastTo_apply v broadcasts_S1x128_S6400x128 (ix2 p k) (ix2 (0 : Fin 1) k) (fun a => by
    match a with
    | ⟨0, _⟩ => rfl
    | ⟨1, _⟩ => rfl)

/-- The quotient form of swish applied along a vector, at an index. -/
theorem swish_vec_apply {s : Shape} (X : FVec Ideal s .f32) (j : s.Idx) :
    divf X (addf (broadcast s (FloatOps.ofBits (F := Ideal) .f32 0x3F800000#32))
      (exp (subf (broadcast s (FloatOps.ofBits (F := Ideal) .f32 0x00000000#32)) X))) j = Cert.Swish.quot (X j) := rfl

/-- The radial features times their 6 × 128 weight, into zero, at (p, k). -/
theorem matmul_rbf_apply {φ₁ φ₂ : FTy} (l : FVec Ideal S6400x6 φ₁) (r : FVec Ideal S6x128 φ₂) (p : Fin 6400) (k : Fin 128) :
    matmul dot_S6400x6_S6x128_S6400x128_1_0_0_1_n_n none l r (constant S6400x128 .f32 0x00000000#32) (ix2 p k)
      = ∑ j : Fin 6, l (ix2 p j) * r (ix2 j k) :=
  Cert.Lib.matmul_zero_apply dot_S6400x6_S6x128_S6400x128_1_0_0_1_n_n.wf none l r p k

/-- A block of 6400 rows times a 128 × 128 weight, into zero, at (p, q). -/
theorem matmul_w5_apply {φ₁ φ₂ : FTy} (l : FVec Ideal S6400x128 φ₁) (r : FVec Ideal S128x128 φ₂) (p : Fin 6400) (q : Fin 128) :
    matmul dot_S6400x128_S128x128_S6400x128_1_0_0_1_n_n none l r (constant S6400x128 .f32 0x00000000#32) (ix2 p q)
      = ∑ k : Fin 128, l (ix2 p k) * r (ix2 k q) :=
  Cert.Lib.matmul_zero_apply dot_S6400x128_S128x128_S6400x128_1_0_0_1_n_n.wf none l r p q

/-- The radial part before the swish, at (p, k). -/
def radialPre (v0 : Vec Ideal S6400x6 .f32) (v2 : Vec Ideal S6x128 .bf16) (v5 : Vec Ideal S1x128 .f32)
    (p : Fin 6400) (k : Fin 128) : EReal :=
  (∑ j : Fin 6, v0 (ix2 p j) * v2 (ix2 j k)) + v5 (ix2 (0 : Fin 1) k)

/-- The stored value at (p, q). -/
theorem edge_pay (v0 : Vec Ideal S6400x6 .f32) (v2 : Vec Ideal S6x128 .bf16) (v5 : Vec Ideal S1x128 .f32)
    (v15 v18 : Vec Ideal S6400x128 .bf16) (v23 : Vec Ideal S128x128 .bf16) (v27 : Vec Ideal S1x128 .f32)
    (p : Fin 6400) (q : Fin 128) :
    k1_pay1 (F := Ideal) v0 v2 v5 v15 v18 v23 v27 (ix2 p q)
      = Cert.Swish.quot (((v15 (ix2 p q) + v18 (ix2 p q))
          + ∑ k : Fin 128, Cert.Swish.quot (radialPre v0 v2 v5 p k) * v23 (ix2 k q)) + v27 (ix2 (0 : Fin 1) q)) := by
  unfold k1_pay1
  simp only [shapeCast_self]
  simp only [swish_vec_apply, addf_apply, extf_apply, truncf_apply, matmul_w5_apply, matmul_rbf_apply, bcast_row_apply]
  rfl

end Cert.KernelIdeal.Hand

end
-- ==== Proof.EdgeRegion.lean ====
/-
  The edge region: its output array after the 125 grid points, as one function of the arrays the region finds.

  Point t handles edge rows 6400 t … 6400 t + 6399: the two gathered node windows, the radial window and the output
  window move with t along the rows; the four parameter windows stay at their one block. So what point t writes back
  is rows 6400 t … of one whole-array function, and the 125 blocks cover the 800000 rows.
-/
import proofs.«174623_j55387898250013_2_alg».proof.Proof.Gen.KernelIdeal.Frame
import proofs.«174623_j55387898250013_2_alg».proof.Proof.EdgePay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The edge-level array, with s the quotient form of swish:
    s (((a (e, h) + b (e, h)) + Σ_k s (Σ_j rbf (e, j) · w_rbf (j, k) + b_rbf (0, k)) · w5 (k, h)) + bias (0, h)). -/
def edgeArr (a bj : S800000x128.Idx → EReal) (rbf : S800000x6.Idx → EReal) (wr : S6x128.Idx → EReal)
    (br : S1x128.Idx → EReal) (w5 : S128x128.Idx → EReal) (bb : S1x128.Idx → EReal) : S800000x128.Idx → EReal :=
  fun i => Cert.Swish.quot (((a i + bj i)
    + ∑ k : Fin 128, Cert.Swish.quot ((∑ j : Fin 6, rbf (ix2 (i 0) j) * wr (ix2 j k)) + br (ix2 (0 : Fin 1) k)) * w5 (ix2 k (i 1)))
    + bb (ix2 (0 : Fin 1) (i 1)))

/-- The printed index maps over the grid: row windows sit at block t, parameter windows at block 0. -/
theorem edge_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- WHAT POINT t WRITES BACK is block t of the edge-level array. -/
theorem edge_flushed (c : Dev nD) (t : Fin cfg1.N) :
    (dat1 V c).flushed 7 t
      = ((cfg1.win 7).blk t).view.read (Elt Ideal)
          (edgeArr (V c main_v30) (V c main_v37) (V c main_arg2) (V c main_v38) (V c main_v40) (V c main_v39) (V c main_v41)) := by
  show (cfg1.win 7).cut (grid1.coords t) ((dat1 V c).after 7 t) = _
  rw [after1_7]
  unfold out1_7
  rw [View.canon_unit_zero hz2']
  simp only [View.ld_unit_zero (S := S6400x6) hz2', View.ld_unit_zero (S := S6x128) hz2', View.ld_unit_zero (S := S1x128) hz2',
    View.ld_unit_zero (S := S6400x128) hz2', View.ld_unit_zero (S := S128x128) hz2']
  obtain ⟨e00, e01, e10, e11, e20, e21, e30, e31, e40, e41, e50, e51, e60, e61, e70, e71⟩ := edge_idx t
  funext j
  obtain ⟨p, q, rfl⟩ : ∃ (p : Fin 6400) (q : Fin 128), j = ix2 p q := ⟨j 0, j 1, eq_ix2 j⟩
  show k1_pay1 (iblk1 V c 2 t) (iblk1 V c 3 t) (iblk1 V c 4 t) (iblk1 V c 0 t) (iblk1 V c 1 t) (iblk1 V c 5 t) (iblk1 V c 6 t) (ix2 p q)
    = edgeArr (V c main_v30) (V c main_v37) (V c main_arg2) (V c main_v38) (V c main_v40) (V c main_v39) (V c main_v41)
        (((cfg1.win 7).blk t).view.emb (ix2 p q))
  refine (edge_pay _ _ _ _ _ _ _ p q).trans ?_
  unfold edgeArr radialPre
  have ha : iblk1 V c 0 t (ix2 p q) = V c main_v30 (((cfg1.win 7).blk t).view.emb (ix2 p q)) := by
    show V c main_v30 (((cfg1.win 0).blk t).view.emb (ix2 p q)) = _
    refine congrArg (V c main_v30) (funext fun a => Fin.ext ?_)
    match a with
    | ⟨0, _⟩ => show win1_0.index t (0 : Fin 2) * 6400 + 1 * p.val = win1_7.index t (0 : Fin 2) * 6400 + 1 * p.val; omega
    | ⟨1, _⟩ => show win1_0.index t (1 : Fin 2) * 128 + 1 * q.val = win1_7.index t (1 : Fin 2) * 128 + 1 * q.val; omega
  have hb : iblk1 V c 1 t (ix2 p q) = V c main_v37 (((cfg1.win 7).blk t).view.emb (ix2 p q)) := by
    show V c main_v37 (((cfg1.win 1).blk t).view.emb (ix2 p q)) = _
    refine congrArg (V c main_v37) (funext fun a => Fin.ext ?_)
    match a with
    | ⟨0, _⟩ => show win1_1.index t (0 : Fin 2) * 6400 + 1 * p.val = win1_7.index t (0 : Fin 2) * 6400 + 1 * p.val; omega
    | ⟨1, _⟩ => show win1_1.index t (1 : Fin 2) * 128 + 1 * q.val = win1_7.index t (1 : Fin 2) * 128 + 1 * q.val; omega
  have hr : ∀ r : Fin 6, iblk1 V c 2 t (ix2 p r)
      = V c main_arg2 (ix2 ((((cfg1.win 7).blk t).view.emb (ix2 p q)) 0) r) := by
    intro r
    show V c main_arg2 (((cfg1.win 2).blk t).view.emb (ix2 p r)) = _
    refine congrArg (V c main_arg2) (funext fun a => Fin.ext ?_)
    match a with
    | ⟨0, _⟩ => show win1_2.index t (0 : Fin 2) * 6400 + 1 * p.val = win1_7.index t (0 : Fin 2) * 6400 + 1 * p.val; omega
    | ⟨1, _⟩ => show win1_2.index t (1 : Fin 2) * 6 + 1 * r.val = r.val; omega
  have hwr : ∀ (r : Fin 6) (k : Fin 128), iblk1 V c 3 t (ix2 r k) = V c main_v38 (ix2 r k) := by
    intro r k
    show V c main_v38 (((cfg1.win 3).blk t).view.emb (ix2 r k)) = _
    refine congrArg (V c main_v38) (funext fun a => Fin.ext ?_)
    match a with
    | ⟨0, _⟩ => show win1_3.index t (0 : Fin 2) * 6 + 1 * r.val = r.val; omega
    | ⟨1, _⟩ => show win1_3.index t (1 : Fin 2) * 128 + 1 * k.val = k.val; omega
  have hbr : ∀ k : Fin 128, iblk1 V c 4 t (ix2 (0 : Fin 1) k) = V c main_v40 (ix2 (0 : Fin 1) k) := by
    intro k
    show V c main_v40 (((cfg1.win 4).blk t).view.emb (ix2 (0 : Fin 1) k)) = _
    refine congrArg (V c main_v40) (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  have hw5 : ∀ k : Fin 128, iblk1 V c 5 t (ix2 k q)
      = V c main_v39 (ix2 k ((((cfg1.win 7).blk t).view.emb (ix2 p q)) 1)) := by
    intro k
    show V c main_v39 (((cfg1.win 5).blk t).view.emb (ix2 k q)) = _
    refine congrArg (V c main_v39) (funext fun a => Fin.ext ?_)
    match a with
    | ⟨0, _⟩ => show win1_5.index t (0 : Fin 2) * 128 + 1 * k.val = k.val; omega
    | ⟨1, _⟩ => show win1_5.index t (1 : Fin 2) * 128 + 1 * q.val = win1_7.index t (1 : Fin 2) * 128 + 1 * q.val; omega
  have hbb : iblk1 V c 6 t (ix2 (0 : Fin 1) q)
      = V c main_v41 (ix2 (0 : Fin 1) ((((cfg1.win 7).blk t).view.emb (ix2 p q)) 1)) := by
    show V c main_v41 (((cfg1.win 6).blk t).view.emb (ix2 (0 : Fin 1) q)) = _
    refine congrArg (V c main_v41) (funext fun a => Fin.ext ?_)
    match a with
    | ⟨0, _⟩ => show win1_6.index t (0 : Fin 2) * 1 + 1 * 0 = 0; omega
    | ⟨1, _⟩ => show win1_6.index t (1 : Fin 2) * 128 + 1 * q.val = win1_7.index t (1 : Fin 2) * 128 + 1 * q.val; omega
  simp only [ha, hb, hr, hwr, hbr, hw5, hbb]

/-- An index of the output array is in point t's block iff its coordinates are in the block's ranges. -/
theorem edge_mem (t : Fin cfg1.N) (i : S800000x128.Idx) :
    i ∈ ((cfg1.win 7).blk t).view.set ↔ ∀ a : Fin 2, win1_7.index t a * S6400x128.size a ≤ (i a).val
      ∧ (i a).val < win1_7.index t a * S6400x128.size a + S6400x128.size a := by
  show i ∈ ((View.whole main_v42).slice (win1_7.rect t)).set ↔ _
  rw [View.set_slice_whole, Rect.mem_set_unit]
  exact Iff.rfl

/-- The point whose block holds edge row r: r / 6400. -/
def edgePoint (i : S800000x128.Idx) : Fin cfg1.N :=
  ⟨(i 0).val / 6400, by
    have hN : cfg1.N = 125 := N_1
    have h0 : (i 0).val < 800000 := (i 0).isLt
    rw [hN]; omega⟩

/-- THE OUTPUT ARRAY after the region: the edge-level array of what the region found. -/
theorem edge_final (c : Dev nD) :
    (dat1 V c).arrAt 7 cfg1.N
      = edgeArr (V c main_v30) (V c main_v37) (V c main_arg2) (V c main_v38) (V c main_v40) (V c main_v39) (V c main_v41) :=
  (dat1 V c).arrAt_eq_of_cover 7 _ (fun t _ => edge_flushed V c t) fun i =>
    ⟨edgePoint i, flush1_7 _, by
      rw [edge_mem]
      obtain ⟨e00, e01, e10, e11, e20, e21, e30, e31, e40, e41, e50, e51, e60, e61, e70, e71⟩ := edge_idx (edgePoint i)
      have h0 : (i 0).val < 800000 := (i 0).isLt
      have h1 : (i 1).val < 128 := (i 1).isLt
      have ht : (edgePoint i).val = (i 0).val / 6400 := rfl
      intro a
      match a with
      | ⟨0, _⟩ =>
        show win1_7.index (edgePoint i) (0 : Fin 2) * 6400 ≤ (i 0).val
          ∧ (i 0).val < win1_7.index (edgePoint i) (0 : Fin 2) * 6400 + 6400
        omega
      | ⟨1, _⟩ =>
        show win1_7.index (edgePoint i) (1 : Fin 2) * 128 ≤ (i 1).val
          ∧ (i 1).val < win1_7.index (edgePoint i) (1 : Fin 2) * 128 + 128
        omega⟩

end Cert.KernelIdeal.Hand

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.EdgeSpec.lean ====
/-
  The edge initialisation as a function of its inputs, in the two arrangements the two programs compute it in, and
  the law that joins them. Independent of any program.

  Inputs: a 95 × 128 embedding table emb, node features chi (100000 × 128), radial features rbf (800000 × 6) with their
  weight w_rbf (6 × 128) and bias b_rbf, five 128 × 128 weights w1 … w5 and a bias b; and three lists of integers: one
  per node (which table row it takes) and two per edge (its two end nodes). Every integer is read signed and clamped
  into its table's row range, as a gather clamps a start index.

  For an edge e and a column h, with n_i, n_j the two end nodes of e:
    E_w (n, h) = Σ_k emb (row of n, k) · w (k, h)         C_w (n, h) = Σ_k chi (n, k) · w (k, h)
    R (e, k)   = Σ_j rbf (e, j) · w_rbf (j, k) + b_rbf (k)
  The plain arrangement sums the four node terms one after the other and uses swish as a product x · (1 / (1 + e^(−x))):
    prod (((((E_w1 (n_i) + C_w2 (n_i)) + E_w3 (n_j)) + C_w4 (n_j)) + Σ_k prod (R (e, k)) · w5 (k, h)) + b (h)).
  The fused arrangement first adds the two terms of each end node and uses swish as a quotient x / (1 + e^(0 − x)):
    quot ((((E_w1 (n_i) + C_w2 (n_i)) + (E_w3 (n_j) + C_w4 (n_j))) + Σ_k quot (R (e, k)) · w5 (k, h)) + b (h)).
  They agree at every extended real: addition there is associative, and the two swish forms are one function.
-/
import Idealize.ShloMosaic.Lib.ValueIdx
import proofs.«174623_j55387898250013_2_alg».proof.Proof.LibEdgeGatherScatter
import proofs.«174623_j55387898250013_2_alg».proof.Proof.Swish

noncomputable section

namespace Cert.Spec

open Idealize.ShloMosaic Idealize.ShloMosaic.ValueIdx Cert.Lib

abbrev Mat (r c : Nat) : Type := (⟨2, ![r, c]⟩ : Shape).Idx → EReal
abbrev Row (n : Nat) : Type := (⟨1, ![n]⟩ : Shape).Idx → EReal
abbrev Ints (E : Nat) : Type := IVec ⟨2, ![E, 1]⟩ 32

variable (emb : Mat 95 128) (chi : Mat 100000 128) (rbf : Mat 800000 6) (wrbf : Mat 6 128) (brbf : Row 128)
  (w1 w2 w3 w4 w5 : Mat 128 128) (b : Row 128) (xi : Ints 100000) (ii jj : Ints 800000)

/-- The table row node n takes. -/
def vocabRow (n : Fin 100000) : Fin 95 := clampRow 95 (by decide) xi n

/-- The end node an edge's integer names. -/
def nodeRow (idx : Ints 800000) (e : Fin 800000) : Fin 100000 := clampRow 100000 (by decide) idx e

/-- E_w (n, h): node n's embedding row times a weight. -/
def embTerm (w : Mat 128 128) (n : Fin 100000) (h : Fin 128) : EReal :=
  ∑ k : Fin 128, emb (ix2 (vocabRow xi n) k) * w (ix2 k h)

/-- C_w (n, h): node n's features times a weight. -/
def chiTerm (w : Mat 128 128) (n : Fin 100000) (h : Fin 128) : EReal :=
  ∑ k : Fin 128, chi (ix2 n k) * w (ix2 k h)

/-- R (e, k): the radial features' linear layer before its swish. -/
def radial (e : Fin 800000) (k : Fin 128) : EReal :=
  (∑ j : Fin 6, rbf (ix2 e j) * wrbf (ix2 j k)) + brbf (ix1 k)

/-- The plain arrangement. -/
def plain (e : Fin 800000) (h : Fin 128) : EReal :=
  Cert.Swish.prod (((((embTerm emb xi w1 (nodeRow ii e) h + chiTerm chi w2 (nodeRow ii e) h)
      + embTerm emb xi w3 (nodeRow jj e) h) + chiTerm chi w4 (nodeRow jj e) h)
    + ∑ k : Fin 128, Cert.Swish.prod (radial rbf wrbf brbf e k) * w5 (ix2 k h)) + b (ix1 h))

/-- The fused arrangement. -/
def fused (e : Fin 800000) (h : Fin 128) : EReal :=
  Cert.Swish.quot ((((embTerm emb xi w1 (nodeRow ii e) h + chiTerm chi w2 (nodeRow ii e) h)
      + (embTerm emb xi w3 (nodeRow jj e) h + chiTerm chi w4 (nodeRow jj e) h))
    + ∑ k : Fin 128, Cert.Swish.quot (radial rbf wrbf brbf e k) * w5 (ix2 k h)) + b (ix1 h))

/-- THE LAW: the two arrangements are one function. -/
theorem plain_eq_fused (e : Fin 800000) (h : Fin 128) :
    plain emb chi rbf wrbf brbf w1 w2 w3 w4 w5 b xi ii jj e h = fused emb chi rbf wrbf brbf w1 w2 w3 w4 w5 b xi ii jj e h := by
  unfold plain fused
  rw [Cert.Swish.prod_eq_quot]
  simp only [Cert.Swish.prod_eq_quot]
  rw [add_assoc (embTerm emb xi w1 (nodeRow ii e) h + chiTerm chi w2 (nodeRow ii e) h)]

end Cert.Spec

end
-- ==== Proof.KernelValue.lean ====
/-
  The idealized kernel's edge result as a function of the launch memory: the fused arrangement.

  The edge region's output is the edge-level array of the two gathered node arrays, the radial features and the
  parameters; each gathered array is the node region's output read at the edges' clamped integers; the node region's
  output at a node is the gathered product "embedding table × slice" plus "features × slice"; and the gathered product
  at a node is the table's row at the node's clamped integer times the slice. Read at (e, h) this is the fused
  arrangement of the specification.
-/
import proofs.«174623_j55387898250013_2_alg».proof.Proof.HostReads
import proofs.«174623_j55387898250013_2_alg».proof.Proof.NodeRegion
import proofs.«174623_j55387898250013_2_alg».proof.Proof.EdgeRegion
import proofs.«174623_j55387898250013_2_alg».proof.Proof.EdgeSpec
import Idealize.ShloMosaic.Lib.Pipeline.Value

set_option maxRecDepth 16384
set_option maxHeartbeats 1000000

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- Equal arrays give equal node-level arrays. -/
theorem nodeArr_congr {l l' c c' : S100000x128.Idx → EReal} {w w' : S128x128.Idx → EReal}
    (hl : l = l') (hc : c = c') (hw : w = w') : nodeArr l c w = nodeArr l' c' w' := by
  subst hl hc hw; rfl

/-- Equal arrays give equal edge-level arrays. -/
theorem edgeArr_congr {a a' bj bj' : S800000x128.Idx → EReal} {r r' : S800000x6.Idx → EReal} {wr wr' : S6x128.Idx → EReal}
    {br br' : S1x128.Idx → EReal} {w w' : S128x128.Idx → EReal} {bb bb' : S1x128.Idx → EReal}
    (h1 : a = a') (h2 : bj = bj') (h3 : r = r') (h4 : wr = wr') (h5 : br = br') (h6 : w = w') (h7 : bb = bb') :
    edgeArr a bj r wr br w bb = edgeArr a' bj' r' wr' br' w' bb' := by
  subst h1 h2 h3 h4 h5 h6 h7; rfl

/-- The edge-level array at (e, h). -/
theorem edgeArr_apply (a bj : S800000x128.Idx → EReal) (r : S800000x6.Idx → EReal) (wr : S6x128.Idx → EReal)
    (br : S1x128.Idx → EReal) (w : S128x128.Idx → EReal) (bb : S1x128.Idx → EReal) (e : Fin 800000) (h : Fin 128) :
    edgeArr a bj r wr br w bb (ix2 e h)
      = Cert.Swish.quot (((a (ix2 e h) + bj (ix2 e h))
          + ∑ k : Fin 128, Cert.Swish.quot ((∑ j : Fin 6, r (ix2 e j) * wr (ix2 j k)) + br (ix2 (0 : Fin 1) k)) * w (ix2 k h))
          + bb (ix2 (0 : Fin 1) h)) := rfl

/-- A 128-vector recast as a one-row matrix, at (0, k), is the vector at k. -/
theorem row_cast_apply (v : FVec Ideal S128 .f32) (k : Fin 128) :
    shapeCast S1x128 v shapeCasts_S128_S1x128 (ix2 (0 : Fin 1) k) = v (ix1 k) :=
  shapeCast_apply v shapeCasts_S128_S1x128 (ix2 (0 : Fin 1) k) (ix1 k) (by
    rw [Shape.rowMajor_val_two, Shape.rowMajor_val_one]; show k.val = 0 * 128 + k.val; omega)

/-- One gathered node array at (e, h): the end node's embedding term plus its feature term. -/
theorem gathered_node_apply (emb : FVec Ideal S95x128 .f32) (wa wb : FVec Ideal S128x128 .f32) (chi : FVec Ideal S100000x128 .f32)
    (x : IVec S100000 32) (idx : IVec S800000 32) (e : Fin 800000) (h : Fin 128) :
    Host.gather gather_S100000x128_S800000x1_S800000x128_1_0_n_n_0_1_1128
        (nodeArr (Host.gather gather_S95x128_S100000x1_S100000x128_1_0_n_n_0_1_1128 (Host.dotGeneral (F := Ideal) dot_S95x128_S128x128_S95x128_1_0_0_1_n_n none emb wa) (nodeInts x)) chi
          (truncf (F := Ideal) .bf16 wb bitsLt_bf16_f32))
        (edgeInts idx) (ix2 e h)
      = Cert.Spec.embTerm emb (nodeInts x) wa (Cert.Spec.nodeRow (edgeInts idx) e) h
        + Cert.Spec.chiTerm chi wb (Cert.Spec.nodeRow (edgeInts idx) e) h := by
  refine (Cert.Lib.gather_rows_apply (by decide) gather_S100000x128_S800000x1_S800000x128_1_0_n_n_0_1_1128.wf _ _ e h).trans ?_
  unfold nodeArr Cert.Spec.embTerm Cert.Spec.chiTerm Cert.Spec.nodeRow Cert.Spec.vocabRow
  generalize Cert.Lib.clampRow 100000 _ (edgeInts idx) e = n
  refine congrArg₂ (fun a b : EReal => a + b) ?_ rfl
  refine (Cert.Lib.gather_rows_apply (by decide) gather_S95x128_S100000x1_S100000x128_1_0_n_n_0_1_1128.wf _ _ n h).trans ?_
  exact Cert.Lib.dotGeneral_plain_apply dot_S95x128_S128x128_S95x128_1_0_0_1_n_n.wf none _ emb wa _ h

/-- The first gathered node array as the region finds it. -/
theorem gathered_first (c : Dev nD) :
    V3 m ρ c main_v30 = (Host.gather gather_S100000x128_S800000x1_S800000x128_1_0_n_n_0_1_1128
      (nodeArr (Host.gather gather_S95x128_S100000x1_S100000x128_1_0_n_n_0_1_1128 (Host.dotGeneral (F := Ideal) dot_S95x128_S128x128_S95x128_1_0_0_1_n_n none (argEmb m c) (w1 m c)) (nodeInts (argX m c)))
        (argChi m c) (truncf (F := Ideal) .bf16 (w2 m c) bitsLt_bf16_f32))
      (edgeInts (argI m c)) : FVec Ideal S800000x128 .bf16) :=
  (entry1_gathered_first m ρ c).trans (congrArg (fun a : FVec Ideal S100000x128 .bf16 => Host.gather gather_S100000x128_S800000x1_S800000x128_1_0_n_n_0_1_1128 a (edgeInts (argI m c)))
    ((exit0_first m ρ c).trans ((node_final_first (V1 m ρ) c).trans
      (nodeArr_congr (entry0_lookup_first m ρ c) (entry0_features m ρ c) (entry0_weight_first m ρ c)))))

/-- The second gathered node array as the region finds it. -/
theorem gathered_second (c : Dev nD) :
    V3 m ρ c main_v37 = (Host.gather gather_S100000x128_S800000x1_S800000x128_1_0_n_n_0_1_1128
      (nodeArr (Host.gather gather_S95x128_S100000x1_S100000x128_1_0_n_n_0_1_1128 (Host.dotGeneral (F := Ideal) dot_S95x128_S128x128_S95x128_1_0_0_1_n_n none (argEmb m c) (w3 m c)) (nodeInts (argX m c)))
        (argChi m c) (truncf (F := Ideal) .bf16 (w4 m c) bitsLt_bf16_f32))
      (edgeInts (argJ m c)) : FVec Ideal S800000x128 .bf16) :=
  (entry1_gathered_second m ρ c).trans (congrArg (fun a : FVec Ideal S100000x128 .bf16 => Host.gather gather_S100000x128_S800000x1_S800000x128_1_0_n_n_0_1_1128 a (edgeInts (argJ m c)))
    ((exit0_second m ρ c).trans ((node_final_second (V1 m ρ) c).trans
      (nodeArr_congr (entry0_lookup_second m ρ c) (entry0_features m ρ c) (entry0_weight_second m ρ c)))))

/-- THE EDGE RESULT after the run, index by index: the fused arrangement of the launch contents. -/
theorem kernel_edges (c : Dev nD) :
    W5 m ρ c (Proc.devRef .tc main_v42) = (fun i =>
      Cert.Spec.fused (argEmb m c) (argChi m c) (argRbf m c) (argWrbf m c) (argBrbf m c)
        (w1 m c) (w2 m c) (w3 m c) (w4 m c) (w5 m c) (argB m c)
        (nodeInts (argX m c)) (edgeInts (argI m c)) (edgeInts (argJ m c)) (i 0) (i 1) : FVec Ideal S800000x128 .f32) := by
  refine (last_edges m ρ c).trans ((edge_final (V3 m ρ) c).trans ((edgeArr_congr (gathered_first m ρ c) (gathered_second m ρ c)
    (entry1_radial m ρ c) (entry1_radial_weight m ρ c) (entry1_radial_bias m ρ c) (entry1_weight_fifth m ρ c) (entry1_bias m ρ c)).trans ?_))
  funext i
  obtain ⟨e, h, rfl⟩ : ∃ (e : Fin 800000) (h : Fin 128), i = ix2 e h := ⟨i 0, i 1, eq_ix2 i⟩
  refine (edgeArr_apply _ _ _ _ _ _ _ e h).trans ?_
  show _ = Cert.Spec.fused (argEmb m c) (argChi m c) (argRbf m c) (argWrbf m c) (argBrbf m c)
        (w1 m c) (w2 m c) (w3 m c) (w4 m c) (w5 m c) (argB m c)
        (nodeInts (argX m c)) (edgeInts (argI m c)) (edgeInts (argJ m c)) e h
  unfold Cert.Spec.fused Cert.Spec.radial
  refine congrArg Cert.Swish.quot ?_
  refine congrArg₂ (fun a b : EReal => a + b) (congrArg₂ (fun a b : EReal => a + b)
    (congrArg₂ (fun a b : EReal => a + b) (gathered_node_apply _ _ _ _ _ _ e h) (gathered_node_apply _ _ _ _ _ _ e h)) ?_)
    (row_cast_apply _ h)
  refine Finset.sum_congr rfl fun k _ => ?_
  refine congrArg₂ (fun a b : EReal => a * b) (congrArg Cert.Swish.quot (congrArg₂ (fun a b : EReal => a + b) rfl (row_cast_apply _ k))) rfl

end Cert.KernelIdeal.Hand

end
-- ==== Proof.RefValue.lean ====
/-
  The reference's result at an index: the plain arrangement of the edge initialisation.

  The reference looks each node's embedding row up, gathers embedding rows and feature rows at each edge's two end
  nodes, multiplies each of the four gathered arrays by its 128 × 128 slice of the weight and adds the products one
  after the other, adds the radial part (a linear layer, swish as a product, the fifth slice) and the bias, and applies
  swish as a product. A gather of rows reads the operand's row at the edge's clamped integer, a matrix product is the
  sum over the shared position, a broadcast bias is read at its column.
-/
import proofs.«174623_j55387898250013_2_alg».proof.Proof.Gen.ReferenceIdeal.Read
import proofs.«174623_j55387898250013_2_alg».proof.Proof.EdgeSpec

noncomputable section

namespace Cert.ReferenceIdeal.RefValue

open Cert.ReferenceIdeal Cert.ReferenceIdeal.Read Idealize.ShloMosaic Idealize.ShloMosaic.ValueIdx

variable (x0 : IVec S100000 32) (x1 : FVec Ideal S100000x128 .f32) (x2 : FVec Ideal S800000x6 .f32) (x3 x4 : IVec S800000 32) (x5 : FVec Ideal S95x128 .f32) (x6 : FVec Ideal S6x128 .f32) (x7 : FVec Ideal S128 .f32) (x8 : FVec Ideal S640x128 .f32) (x9 : FVec Ideal S128 .f32)

/-- Rows of a 100000-row array gathered at the edges' integers, at (e, k). -/
theorem edge_gather_apply {α : Type} (x : S100000x128.Idx → α) (idx : IVec S800000x1 32) (e : Fin 800000) (k : Fin 128) :
    Host.gather gather_S100000x128_S800000x1_S800000x128_1_0_n_n_0_1_1128 x idx (ix2 e k)
      = x (ix2 (Cert.Spec.nodeRow idx e) k) :=
  Cert.Lib.gather_rows_apply (by decide) gather_S100000x128_S800000x1_S800000x128_1_0_n_n_0_1_1128.wf x idx e k

/-- Rows of the 95-row table gathered at the nodes' integers, at (n, k). -/
theorem node_gather_apply {α : Type} (x : S95x128.Idx → α) (idx : IVec S100000x1 32) (n : Fin 100000) (k : Fin 128) :
    Host.gather gather_S95x128_S100000x1_S100000x128_1_0_n_n_0_1_1128 x idx (ix2 n k)
      = x (ix2 (Cert.Spec.vocabRow idx n) k) :=
  Cert.Lib.gather_rows_apply (by decide) gather_S95x128_S100000x1_S100000x128_1_0_n_n_0_1_1128.wf x idx n k

/-- The operand indices of a product [800000, 128] × [128, 128] at (e, h) and position k. -/
theorem lrow (e : Fin 800000) (h k : Fin 128) :
    (fun a => match a with | ⟨0, _⟩ => ⟨((ix2 e h : S800000x128.Idx) 0).val, ((ix2 e h : S800000x128.Idx) 0).isLt⟩ | ⟨1, _⟩ => ⟨k.val, k.isLt⟩ : S800000x128.Idx)
      = ix2 e k := funext fun a => by match a with | ⟨0, _⟩ => rfl | ⟨1, _⟩ => rfl
theorem rcol (e : Fin 800000) (h k : Fin 128) :
    (fun a => match a with | ⟨0, _⟩ => ⟨k.val, k.isLt⟩ | ⟨1, _⟩ => ⟨((ix2 e h : S800000x128.Idx) 1).val, ((ix2 e h : S800000x128.Idx) 1).isLt⟩ : S128x128.Idx)
      = ix2 k h := funext fun a => by match a with | ⟨0, _⟩ => rfl | ⟨1, _⟩ => rfl

/-- The first product: the embedding rows of the first end nodes times the first slice. -/
theorem emb_first (e : Fin 800000) (h : Fin 128) :
    val_main_v30 (F := Ideal) x0 x3 x5 x8 (ix2 e h)
      = Cert.Spec.embTerm x5 (val_main_v5 (F := Ideal) x0) (val_main_v18 (F := Ideal) x8) (Cert.Spec.nodeRow (val_main_v28 (F := Ideal) x3) e) h := by
  rw [val_main_v30_apply]
  unfold Cert.Spec.embTerm
  refine Finset.sum_congr rfl fun k _ => ?_
  rw [show lidx_main_v30 (ix2 e h) k = ix2 e k from lrow e h k, show ridx_main_v30 (ix2 e h) k = ix2 k h from rcol e h k]
  unfold val_main_v29 val_main_v6
  rw [edge_gather_apply, node_gather_apply]

/-- The second product: the feature rows of the first end nodes times the second slice. -/
theorem chi_first (e : Fin 800000) (h : Fin 128) :
    val_main_v38 (F := Ideal) x1 x3 x8 (ix2 e h)
      = Cert.Spec.chiTerm x1 (val_main_v19 (F := Ideal) x8) (Cert.Spec.nodeRow (val_main_v36 (F := Ideal) x3) e) h := by
  rw [val_main_v38_apply]
  unfold Cert.Spec.chiTerm
  refine Finset.sum_congr rfl fun k _ => ?_
  rw [show lidx_main_v38 (ix2 e h) k = ix2 e k from lrow e h k, show ridx_main_v38 (ix2 e h) k = ix2 k h from rcol e h k]
  unfold val_main_v37
  rw [edge_gather_apply]

/-- The third product: the embedding rows of the second end nodes times the third slice. -/
theorem emb_second (e : Fin 800000) (h : Fin 128) :
    val_main_v47 (F := Ideal) x0 x4 x5 x8 (ix2 e h)
      = Cert.Spec.embTerm x5 (val_main_v5 (F := Ideal) x0) (val_main_v20 (F := Ideal) x8) (Cert.Spec.nodeRow (val_main_v45 (F := Ideal) x4) e) h := by
  rw [val_main_v47_apply]
  unfold Cert.Spec.embTerm
  refine Finset.sum_congr rfl fun k _ => ?_
  rw [show lidx_main_v47 (ix2 e h) k = ix2 e k from lrow e h k, show ridx_main_v47 (ix2 e h) k = ix2 k h from rcol e h k]
  unfold val_main_v46 val_main_v6
  rw [edge_gather_apply, node_gather_apply]

/-- The fourth product: the feature rows of the second end nodes times the fourth slice. -/
theorem chi_second (e : Fin 800000) (h : Fin 128) :
    val_main_v56 (F := Ideal) x1 x4 x8 (ix2 e h)
      = Cert.Spec.chiTerm x1 (val_main_v21 (F := Ideal) x8) (Cert.Spec.nodeRow (val_main_v54 (F := Ideal) x4) e) h := by
  rw [val_main_v56_apply]
  unfold Cert.Spec.chiTerm
  refine Finset.sum_congr rfl fun k _ => ?_
  rw [show lidx_main_v56 (ix2 e h) k = ix2 e k from lrow e h k, show ridx_main_v56 (ix2 e h) k = ix2 k h from rcol e h k]
  unfold val_main_v55
  rw [edge_gather_apply]

/-- The radial part after its swish, at (e, k). -/
theorem radial_swish (e : Fin 800000) (k : Fin 128) :
    val_main_v17 (F := Ideal) x2 x6 x7 (ix2 e k) = Cert.Swish.prod (Cert.Spec.radial x2 x6 x7 e k) := by
  have hpre : val_main_v10 (F := Ideal) x2 x6 x7 (ix2 e k) = Cert.Spec.radial x2 x6 x7 e k := by
    rw [val_main_v10_apply, val_main_v7_apply, val_main_v9_apply, val_main_v8_apply]
    unfold Cert.Spec.radial
    refine congrArg₂ (fun a b : EReal => a + b) (Finset.sum_congr rfl fun j _ => ?_) ?_
    · refine congrArg₂ (fun a b : EReal => a * b) (congrArg x2 ?_) (congrArg x6 ?_)
      · funext a; match a with | ⟨0, _⟩ => rfl | ⟨1, _⟩ => rfl
      · funext a; match a with | ⟨0, _⟩ => rfl | ⟨1, _⟩ => rfl
    · refine congrArg x7 ?_
      funext a; match a with | ⟨0, _⟩ => rfl
  rw [val_main_v17_apply, val_main_v16_apply, val_main_v15_apply, val_main_cst_1_apply, val_main_v14_apply, val_main_v13_apply,
    val_main_cst_apply, val_main_v12_apply, val_main_v11_apply, hpre]
  rfl

/-- The fifth product: the radial part times the fifth slice. -/
theorem radial_dot (e : Fin 800000) (h : Fin 128) :
    val_main_v58 (F := Ideal) x2 x6 x7 x8 (ix2 e h)
      = ∑ k : Fin 128, Cert.Swish.prod (Cert.Spec.radial x2 x6 x7 e k) * val_main_v22 (F := Ideal) x8 (ix2 k h) := by
  rw [val_main_v58_apply]
  refine Finset.sum_congr rfl fun k _ => ?_
  rw [show lidx_main_v58 (ix2 e h) k = ix2 e k from lrow e h k, show ridx_main_v58 (ix2 e h) k = ix2 k h from rcol e h k,
    radial_swish]

/-- The two columns of edge integers are each computed twice, by the same operations. -/
theorem ints_first_again : val_main_v36 (F := Ideal) x3 = val_main_v28 (F := Ideal) x3 := rfl
theorem ints_second_again : val_main_v54 (F := Ideal) x4 = val_main_v45 (F := Ideal) x4 := rfl

/-- THE REFERENCE'S RESULT at (e, h): the plain arrangement. -/
theorem result_apply (e : Fin 800000) (h : Fin 128) :
    val_main_v69 (F := Ideal) x0 x1 x2 x3 x4 x5 x6 x7 x8 x9 (ix2 e h)
      = Cert.Spec.plain x5 x1 x2 x6 x7 (val_main_v18 (F := Ideal) x8) (val_main_v19 (F := Ideal) x8) (val_main_v20 (F := Ideal) x8) (val_main_v21 (F := Ideal) x8) (val_main_v22 (F := Ideal) x8) x9
          (val_main_v5 (F := Ideal) x0) (val_main_v28 (F := Ideal) x3) (val_main_v45 (F := Ideal) x4) e h := by
  have hpre : val_main_v62 (F := Ideal) x0 x1 x2 x3 x4 x5 x6 x7 x8 x9 (ix2 e h)
      = ((((Cert.Spec.embTerm x5 (val_main_v5 (F := Ideal) x0) (val_main_v18 (F := Ideal) x8) (Cert.Spec.nodeRow (val_main_v28 (F := Ideal) x3) e) h
            + Cert.Spec.chiTerm x1 (val_main_v19 (F := Ideal) x8) (Cert.Spec.nodeRow (val_main_v28 (F := Ideal) x3) e) h)
          + Cert.Spec.embTerm x5 (val_main_v5 (F := Ideal) x0) (val_main_v20 (F := Ideal) x8) (Cert.Spec.nodeRow (val_main_v45 (F := Ideal) x4) e) h)
          + Cert.Spec.chiTerm x1 (val_main_v21 (F := Ideal) x8) (Cert.Spec.nodeRow (val_main_v45 (F := Ideal) x4) e) h)
        + ∑ k : Fin 128, Cert.Swish.prod (Cert.Spec.radial x2 x6 x7 e k) * val_main_v22 (F := Ideal) x8 (ix2 k h))
        + x9 (ix1 h) := by
    rw [val_main_v62_apply, val_main_v59_apply, val_main_v57_apply, val_main_v48_apply, val_main_v39_apply,
      emb_first, chi_first, emb_second, chi_second, radial_dot, val_main_v61_apply, val_main_v60_apply,
      ints_first_again, ints_second_again]
    refine congrArg (fun s : EReal => _ + s) (congrArg x9 ?_)
    funext a; match a with | ⟨0, _⟩ => rfl
  rw [val_main_v69_apply, val_main_v68_apply, val_main_v67_apply, val_main_cst_11_apply, val_main_v66_apply, val_main_v65_apply,
    val_main_cst_10_apply, val_main_v64_apply, val_main_v63_apply, hpre]
  rfl

/-- THE REFERENCE'S RESULT as one array. -/
theorem result_eq :
    val_main_v69 (F := Ideal) x0 x1 x2 x3 x4 x5 x6 x7 x8 x9
      = (fun i => Cert.Spec.plain x5 x1 x2 x6 x7 (val_main_v18 (F := Ideal) x8) (val_main_v19 (F := Ideal) x8) (val_main_v20 (F := Ideal) x8)
          (val_main_v21 (F := Ideal) x8) (val_main_v22 (F := Ideal) x8) x9
          (val_main_v5 (F := Ideal) x0) (val_main_v28 (F := Ideal) x3) (val_main_v45 (F := Ideal) x4) (i 0) (i 1) : FVec Ideal S800000x128 .f32) := by
  funext i
  obtain ⟨e, h, rfl⟩ : ∃ (e : Fin 800000) (h : Fin 128), i = ix2 e h := ⟨i 0, i 1, eq_ix2 i⟩
  exact result_apply x0 x1 x2 x3 x4 x5 x6 x7 x8 x9 e h

end Cert.ReferenceIdeal.RefValue

end
-- ==== Proof.lean ====
/-
  Edge initialisation of a graph network: a kernel that precomputes per-node sums against a reference that works per edge.

  Both programs compute, for each of 800000 edges e with end nodes n_i, n_j and each of 128 columns h,
      swish (E_w1 (n_i, h) + C_w2 (n_i, h) + E_w3 (n_j, h) + C_w4 (n_j, h) + Σ_k swish (R (e, k)) · w5 (k, h) + b (h)),
  where E_w (n, h) = Σ_k emb (row of n, k) · w (k, h) is node n's embedding row times a 128 × 128 slice w of the weight,
  C_w (n, h) = Σ_k chi (n, k) · w (k, h) its feature row times a slice, and R the radial features' linear layer.

  The reference gathers embedding and feature rows per edge, multiplies and adds the four products one after the other,
  and writes swish as x · (1 / (1 + e^(−x))). The kernel multiplies the 95-row table by the first and third slice once,
  forms per node A (n) = E_w1 (n) + C_w2 (n) and B (n) = E_w3 (n) + C_w4 (n) in a first pipelined region, gathers A at
  n_i and B at n_j, and in a second region adds them to the radial term and the bias, with swish as x / (1 + e^(0 − x)).
  On the extended reals a change of float format is the identity, a gather of rows commutes with a product along the
  columns (it only selects which row is read), addition is associative, and the two swish forms are one function
  (1 + e^z is never zero). So the two results are equal index by index; no finiteness of the inputs is used.

  The three frames: the two kernel programs' are the generated ones; the reference's is its generated run with the results
  dropped. The idealization rewrote nothing, so its preservation claim is trivial.
-/
import proofs.«174623_j55387898250013_2_alg».proof.Defs
import proofs.«174623_j55387898250013_2_alg».proof.Proof.Gen.Kernel
import proofs.«174623_j55387898250013_2_alg».proof.Proof.Gen.Kernel.Frame
import proofs.«174623_j55387898250013_2_alg».proof.Proof.Gen.KernelIdeal
import proofs.«174623_j55387898250013_2_alg».proof.Proof.Gen.KernelIdeal.Frame
import proofs.«174623_j55387898250013_2_alg».proof.Proof.Gen.ReferenceIdeal
import proofs.«174623_j55387898250013_2_alg».proof.Proof.Gen.Pre_finite_inputs
import proofs.«174623_j55387898250013_2_alg».proof.Proof.Gen.ReferenceIdeal.Run
import proofs.«174623_j55387898250013_2_alg».proof.Proof.Gen.ReferenceIdeal.Read
import proofs.«174623_j55387898250013_2_alg».proof.Proof.KRun
import proofs.«174623_j55387898250013_2_alg».proof.Proof.KernelValue
import proofs.«174623_j55387898250013_2_alg».proof.Proof.RefValue
import Idealize.ShloMosaic.Adequacy
import Idealize.ShloMosaic.Init

set_option maxRecDepth 16384
set_option maxHeartbeats 1000000

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the edge array at the fused arrangement of the arguments, and the integer result at 1. -/
theorem algebraic : Cert.algebraic_KernelIdeal_ReferenceIdeal := by
  intro m ρ m' ρ' _ hagree
  refine ⟨fun c => (fun i =>
      Cert.Spec.fused (Cert.KernelIdeal.Hand.argEmb m c) (Cert.KernelIdeal.Hand.argChi m c) (Cert.KernelIdeal.Hand.argRbf m c)
        (Cert.KernelIdeal.Hand.argWrbf m c) (Cert.KernelIdeal.Hand.argBrbf m c)
        (Cert.KernelIdeal.Hand.w1 m c) (Cert.KernelIdeal.Hand.w2 m c) (Cert.KernelIdeal.Hand.w3 m c) (Cert.KernelIdeal.Hand.w4 m c)
        (Cert.KernelIdeal.Hand.w5 m c) (Cert.KernelIdeal.Hand.argB m c)
        (Cert.KernelIdeal.Hand.nodeInts (Cert.KernelIdeal.Hand.argX m c)) (Cert.KernelIdeal.Hand.edgeInts (Cert.KernelIdeal.Hand.argI m c))
        (Cert.KernelIdeal.Hand.edgeInts (Cert.KernelIdeal.Hand.argJ m c)) (i 0) (i 1) : FVec Ideal Cert.KernelIdeal.S800000x128 .f32),
    fun c => (constantI Cert.KernelIdeal.S_ 32 1#32 : IVec Cert.KernelIdeal.S_ 32), ?_, ?_⟩
  · refine (θ_run Cert.KernelIdeal.defs _ _).mono (fun r h c => ?_) (Cert.KernelIdeal.Hand.run_results (F := Ideal) m ρ)
    obtain ⟨h1, h2, hargs⟩ := h c
    exact ⟨h1.trans (Cert.KernelIdeal.Hand.kernel_edges m ρ c), h2.trans (Cert.KernelIdeal.Hand.last_const m ρ c), hargs⟩
  · refine (θ_run Cert.ReferenceIdeal.defs _ _).mono (fun r h c => ?_) (Cert.ReferenceIdeal.Value.run (F := Ideal) m' ρ')
    obtain ⟨h1, h2, hargs⟩ := h c
    refine ⟨h1.trans ?_, h2, hargs⟩
    obtain ⟨a0, a1, a2, a3, a4, a5, a6, a7, a8, a9⟩ := hagree c
    rw [Cert.ReferenceIdeal.Read.val_main_v69_eq, a0, a1, a2, a3, a4, a5, a6, a7, a8, a9, Cert.ReferenceIdeal.RefValue.result_eq]
    funext i
    exact Cert.Spec.plain_eq_fused _ _ _ _ _ _ _ _ _ _ _ _ _ _ (i 0) (i 1)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
